-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S64x4096 : Shape := ⟨2, ![64, 4096]⟩
abbrev S4096x64 : Shape := ⟨2, ![4096, 64]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x64 .f32) (main_arg5 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x4096x4096 .f32) (main_arg1 : FVec F S2x4096x4096 .f32) (main_arg2 : FVec F S4096x4096 .f32) (main_arg3 : FVec F S64x4096 .f32) (main_arg4 : FVec F S4096x64 .f32) (main_arg5 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_v13 main_v16
-- ==== Kernel.lean ====
abbrev S2x4096x4096 : Shape := ⟨3, ![2, 4096, 4096]⟩
abbrev S4096x4096 : Shape := ⟨2, ![4096, 4096]⟩
abbrev S64x4096 : Shape := ⟨2, ![64, 4096]⟩
abbrev S4096x64 : Shape := ⟨2, ![4096, 64]⟩
abbrev S4096 : Shape := ⟨1, ![4096]⟩
abbrev S512x4096 : Shape := ⟨2, ![512, 4096]⟩
abbrev S512x64 : Shape := ⟨2, ![512, 64]⟩
abbrev S512 : Shape := ⟨1, ![512]⟩
abbrev S1x256x4096 : Shape := ⟨3, ![1, 256, 4096]⟩
abbrev S256x4096 : Shape := ⟨2, ![256, 4096]⟩
abbrev S256x64 : Shape := ⟨2, ![256, 64]⟩
abbrev S1x4096 : Shape := ⟨2, ![1, 4096]⟩

abbrev nBuf : Space → Nat
  | .hbm => 9
  | .vmem => 18
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096x4096, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S4096, .f32⟩
  | .hbm, ⟨7, _⟩ => ⟨S64x4096, .f32⟩
  | .hbm, ⟨8, _⟩ => ⟨S2x4096x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S512x64, .f32⟩
  | .local _ .vmem, ⟨4, _⟩ => ⟨S512x64, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S1x256x4096, .f32⟩
  | .local _ .vmem, ⟨10, _⟩ => ⟨S1x256x4096, .f32⟩
  | .local _ .vmem, ⟨11, _⟩ => ⟨S1x256x4096, .f32⟩
  | .local _ .vmem, ⟨12, _⟩ => ⟨S1x256x4096, .f32⟩
  | .local _ .vmem, ⟨13, _⟩ => ⟨S64x4096, .f32⟩
  | .local _ .vmem, ⟨14, _⟩ => ⟨S64x4096, .f32⟩
  | .local _ .vmem, ⟨15, _⟩ => ⟨S4096, .f32⟩
  | .local _ .vmem, ⟨16, _⟩ => ⟨S1x256x4096, .f32⟩
  | .local _ .vmem, ⟨17, _⟩ => ⟨S1x256x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  reduces_S512x4096_S512 : S512x4096.Reduces [1] S512
  inb_S512_S512_0 : ∀ a, (![0] : Fin 1 → Nat) a + S512.size a ≤ S512.size a
  h_S512 : 0 < S512.numel
  transposes_S4096x64_S64x4096_1_0 : S4096x64.Transposes [1, 0] S64x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S64x4096_S64x4096 : S64x4096.ShapeCasts S64x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  shapeCasts_S256x4096_S1x256x4096 : S256x4096.ShapeCasts S1x256x4096
  dot_S512x64_S64x4096_S512x4096_1_0_0_1_n_n_wf : DotDims.WF S512x64 S64x4096 S512x4096 [1] [0] [0] [1] [] []
  dot_S256x4096_S64x4096_S256x64_1_1_0_0_n_n_wf : DotDims.WF S256x4096 S64x4096 S256x64 [1] [1] [0] [0] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S2x4096x4096.size a
  hwx1_0 : ∀ i : grid1.Coords, EltTy.bits .f32 = 32 ∨ (Rect.block (s := S2x4096x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S2x4096x4096.size a
  hwx1_1 : ∀ i : grid1.Coords, EltTy.bits .f32 = 32 ∨ (Rect.block (s := S2x4096x4096) S1x256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .f32 = 32 ∨ (Rect.block (s := S64x4096) S64x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S64x4096.size a
  hwx1_3 : ∀ i : grid1.Coords, EltTy.bits .f32 = 32 ∨ (Rect.block (s := S64x4096) S64x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S4096.size a
  hwx1_4 : ∀ i : grid1.Coords, EltTy.bits .f32 = 32 ∨ (Rect.block (s := S4096) S4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x4096.size a ≤ S2x4096x4096.size a
  hwx1_5 : ∀ i : grid1.Coords, EltTy.bits .f32 = 32 ∨ (Rect.block (s := S2x4096x4096) S1x256x4096.size (cc1_transform_5 i) (hinb1_5 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S64x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S64x4096 : Shape := ⟨2, ![64, 4096]⟩
abbrev S4096x64 : Shape := ⟨2, ![4096, 64]⟩
abbrev S4096 : Shape := ⟨1, ![4096]⟩
abbrev S2x4096x64 : Shape := ⟨3, ![2, 4096, 64]⟩
abbrev S_ : Shape := ⟨0, ![]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096x4096, .f32⟩
  | .hbm, ⟨3, _⟩ => ⟨S64x4096, .f32⟩
  | .hbm, ⟨4, _⟩ => ⟨S4096x64, .f32⟩
  | .hbm, ⟨5, _⟩ => ⟨S4096, .f32⟩
  | .hbm, ⟨6, _⟩ => ⟨S2x4096x64, .f32⟩
  | .hbm, ⟨7, _⟩ => ⟨S2x4096x4096, .f32⟩
  | .hbm, ⟨8, _⟩ => ⟨S_, .f32⟩
  | .hbm, ⟨9, _⟩ => ⟨S2x4096x4096, .f32⟩
  | .hbm, ⟨10, _⟩ => ⟨S2x4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S2x4096x4096, .f32⟩
  | .hbm, ⟨25, _⟩ => ⟨S1x1x4096, .f32⟩
  | .hbm, ⟨26, _⟩ => ⟨S2x4096x4096, .f32⟩
  | .hbm, ⟨27, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S64x4096_S2x4096x64_2_1_01_0_n_n_wf : DotDims.WF S2x4096x4096 S64x4096 S2x4096x64 [2] [1] [0, 1] [0] [] []
  dot_S2x4096x64_S4096x64_S2x4096x4096_2_1_01_0_n_n_wf : DotDims.WF S2x4096x64 S4096x64 S2x4096x4096 [2] [1] [0, 1] [0] [] []
  dot_S4096x64_S64x4096_S4096x4096_1_0_0_1_n_n_wf : DotDims.WF S4096x64 S64x4096 S4096x4096 [1] [0] [0] [1] [] []

variable [Facts₀]

def dot_S2x4096x4096_S64x4096_S2x4096x64_2_1_01_0_n_n : DotDims S2x4096x4096 S64x4096 S2x4096x64 where
  lhsContracting := [2]
  rhsContracting := [1]
  lhsNonContracting := [0, 1]
  rhsNonContracting := [0]
  lhsBatch := []
  rhsBatch := []
  wf := dot_S2x4096x4096_S64x4096_S2x4096x64_2_1_01_0_n_n_wf
def dot_S2x4096x64_S4096x64_S2x4096x4096_2_1_01_0_n_n : DotDims S2x4096x64 S4096x64 S2x4096x4096 where
  lhsContracting := [2]
  rhsContracting := [1]
  lhsNonContracting := [0, 1]
  rhsNonContracting := [0]
  lhsBatch := []
  rhsBatch := []
  wf := dot_S2x4096x64_S4096x64_S2x4096x4096_2_1_01_0_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.KernelRun.lean ====
/-
  The idealized kernel's run, with its result named.

  @main is the first region, one host transpose, and the second region. Every weakly fair execution terminates without
  a fault in a state whose unscoped buffers hold the contents the segments fold to, `Gen.W3`: region 1's arrays at what
  its write-backs leave, every other buffer as region 1 found it. Reading the result buffer as well as the six arguments
  out of that final state gives the run with the result at `Gen.W3 … main_v2`, which is region 1's output array after
  its last grid point.
-/
import proofs.«158901_j14869176779242_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the end of the fold is region 1's output array after its last grid point. -/
theorem W3_result (c : Dev nD) :
    W3 m ρ c (Proc.devRef .tc main_v2) = (dat1 (V2 m ρ) c).arrAt 5 cfg1.N :=
  W3_arr m ρ c 5

set_option backward.isDefEq.respectTransparency.types false in
/-- THE RUN: at the compiled mesh, from any memory with zero counters, every weakly fair execution of @main on the
    TensorCores terminates, nothing faulting, with the result buffer at the fold's contents and the six argument
    arrays as launched. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.Spec.lean ====
/-
  What both programs compute, entry by entry, on the extended reals.

  The arguments are an activation `x` [2, 4096, 4096], a base output `y` [2, 4096, 4096], a base weight `W` [4096, 4096],
  two low-rank factors `A` [64, 4096] and `B` [4096, 64], and a magnitude vector `g` [4096]. With the scale `2` and a small
  constant `ε` (both kept as their binary words: they are the same words on both sides and are never evaluated):

    updated weight   U[o, d]    = W[o, d] + (Σ_r B[o, r] · A[r, d]) · 2
    magnitude scale  s[o]       = g[o] / (√(Σ_d U[o, d] · U[o, d]) + ε)
    low-rank path    L[b, t, o] = Σ_r (Σ_d x[b, t, d] · A[r, d]) · B[o, r]
    result           R[b, t, o] = (y[b, t, o] + L[b, t, o] · 2) · s[o]

  The second stage is stated for ANY vector `s` and any matrix `Bt` [64, 4096] standing for the transposed factor
  (`stageTwo`), and then at `s` the magnitude scale and `Bt` the transpose of `B` (`result`).
-/
import Idealize.ShloMosaic.PureOps.Ideal
import Idealize.ShloMosaic.Lib.ValueIdx

noncomputable section

open scoped BigOperators

namespace Cert.Dora

open Idealize.ShloMosaic Idealize.ShloMosaic.ValueIdx

/-- The scale `α / rank = 2`, as the word both programs print. -/
abbrev two : EReal := Ideal.ofBits .f32 0x40000000#32
/-- The small constant added to the norm, as the word both programs print. -/
abbrev eps : EReal := Ideal.ofBits .f32 0x322BCC77#32

abbrev Arr3 := (⟨3, ![2, 4096, 4096]⟩ : Shape).Idx → EReal
abbrev ArrW := (⟨2, ![4096, 4096]⟩ : Shape).Idx → EReal
abbrev ArrA := (⟨2, ![64, 4096]⟩ : Shape).Idx → EReal
abbrev ArrB := (⟨2, ![4096, 64]⟩ : Shape).Idx → EReal
abbrev ArrG := (⟨1, ![4096]⟩ : Shape).Idx → EReal

/-- The updated weight at row `o`, column `d`: the base weight plus twice the low-rank product `B · A` there. -/
def updated (W : ArrW) (A : ArrA) (B : ArrB) (o d : Fin 4096) : EReal :=
  W (ix2 o d) + (∑ r : Fin 64, B (ix2 o r) * A (ix2 r d)) * two

/-- The magnitude scale of output feature `o`: the magnitude over the row's Euclidean norm plus `ε`. -/
def magScaleAt (W : ArrW) (A : ArrA) (B : ArrB) (g : ArrG) (o : Fin 4096) : EReal :=
  Ideal.div (g (ix1 o)) (Ideal.sqrt (∑ d : Fin 4096, updated W A B o d * updated W A B o d) + eps)

/-- The magnitude scale as a vector over the output features. -/
def magScale (W : ArrW) (A : ArrA) (B : ArrB) (g : ArrG) : ArrG := fun i => magScaleAt W A B g (i 0)

/-- The second stage at batch `b`, token `t`, feature `o`, for a scale vector `s` and a [64, 4096] factor `Bt`:
    `(y + (Σ_r (Σ_d x · A[r, d]) · Bt[r, o]) · 2) · s[o]`. -/
def stageTwoAt (x y : Arr3) (A Bt : ArrA) (s : ArrG) (b : Fin 2) (t o : Fin 4096) : EReal :=
  (y (ix3 b t o) + (∑ r : Fin 64, (∑ d : Fin 4096, x (ix3 b t d) * A (ix2 r d)) * Bt (ix2 r o)) * two) * s (ix1 o)

/-- The second stage as an array. -/
def stageTwo (x y : Arr3) (A Bt : ArrA) (s : ArrG) : Arr3 := fun i => stageTwoAt x y A Bt s (i 0) (i 1) (i 2)

/-- The transposed factor: `Bt[r, o] = B[o, r]`. -/
def transposed (B : ArrB) : ArrA := fun i => B (ix2 (i 1) (i 0))

/-- The whole result: the second stage at the magnitude scale and the transposed factor. -/
def result (x y : Arr3) (W : ArrW) (A : ArrA) (B : ArrB) (g : ArrG) : Arr3 :=
  stageTwo x y A (transposed B) (magScale W A B g)

/-- The result at an entry, with the transpose and the scale vector read through. -/
theorem result_apply (x y : Arr3) (W : ArrW) (A : ArrA) (B : ArrB) (g : ArrG) (b : Fin 2) (t o : Fin 4096) :
    result x y W A B g (ix3 b t o)
      = (y (ix3 b t o) + (∑ r : Fin 64, (∑ d : Fin 4096, x (ix3 b t d) * A (ix2 r d)) * B (ix2 o r)) * two)
          * magScaleAt W A B g o := rfl

end Cert.Dora

end
-- ==== Proof.NormBody.lean ====
/-
  The first kernel's body at an entry.

  The body holds a block of 512 rows of the base weight `w` [512, 4096], the whole factor `a` [64, 4096], the block's
  512 rows of the factor `b` [512, 64] and the block's 512 magnitudes `g`. Row `p` of what it stores is

    g[p] / (√(Σ_d (w[p, d] + (Σ_r b[p, r] · a[r, d]) · 2)²) + ε).

  The product `b · a` is a matrix-unit product into a zero accumulator, at an entry the plain sum over the 64 ranks;
  the row sum is a lane reduction, at a row the plain sum over the 4096 columns; the rounding to bf16 on the way into
  the product is the identity on the extended reals.
-/
import proofs.«158901_j14869176779242_2_alg».proof.Proof.Gen.KernelIdeal.Skeleton
import proofs.«158901_j14869176779242_2_alg».proof.Proof.Spec
import Idealize.ShloMosaic.Lib.ValueIdx
import Idealize.ShloMosaic.PureOps.Ideal.Laws

noncomputable section

open scoped BigOperators

namespace Cert.KernelIdeal.NormBody

open Cert.KernelIdeal Cert.KernelIdeal.Gen Idealize.ShloMosaic Idealize.ShloMosaic.ValueIdx Cert.Dora

/-- The dimension numbers of the product `b · a`: [512, 64] by [64, 4096], contracting the 64 ranks. -/
abbrev DW := dot_S512x64_S64x4096_S512x4096_1_0_0_1_n_n

theorem DW_lhs0 (i : S512x4096.Idx) (q : DW.contr.Idx) : (DW.lhsIdx i q 0).val = (i 0).val := by
  unfold DotDims.lhsIdx
  rw [dif_neg (show ¬(0 : Fin S512x64.rank) ∈ DW.lhsBatch by decide), dif_pos (show (0 : Fin S512x64.rank) ∈ DW.lhsNonContracting by decide)]
  rfl
theorem DW_lhs1 (i : S512x4096.Idx) (q : DW.contr.Idx) : (DW.lhsIdx i q 1).val = (q ⟨0, by decide⟩).val :=
  DW.lhsIdx_val_of_single rfl i q
theorem DW_rhs0 (i : S512x4096.Idx) (q : DW.contr.Idx) : (DW.rhsIdx i q 0).val = (q ⟨0, by decide⟩).val :=
  DW.rhsIdx_val_of_single rfl i q
theorem DW_rhs1 (i : S512x4096.Idx) (q : DW.contr.Idx) : (DW.rhsIdx i q 1).val = (i 1).val := by
  unfold DotDims.rhsIdx
  rw [dif_neg (show ¬(1 : Fin S64x4096.rank) ∈ DW.rhsBatch by decide), dif_pos (show (1 : Fin S64x4096.rank) ∈ DW.rhsNonContracting by decide)]
  rfl

/-- The product `b · a` into a zero accumulator, at row `p` and column `d`, is the sum over the ranks. -/
theorem weightProduct_apply (l : FVec Ideal S512x64 .bf16) (r : FVec Ideal S64x4096 .bf16) (p : Fin 512) (d : Fin 4096) :
    matmul DW none l r (constant (F := Ideal) S512x4096 .f32 0x00000000#32) (ix2 p d) = ∑ k : Fin 64, l (ix2 p k) * r (ix2 k d) := by
  simp only [matmul]
  rw [Ideal.matmul_constant_zero_apply, ← Equiv.sum_comp (contrEquiv1 DW 64 rfl rfl).symm]
  refine Finset.sum_congr rfl fun k _ => ?_
  have hk := contrEquiv1_symm_val DW 64 rfl rfl k
  have el : DW.lhsIdx (ix2 p d) ((contrEquiv1 DW 64 rfl rfl).symm k) = ix2 p k := funext fun a => Fin.ext (by
    match a with
    | ⟨0, _⟩ => exact DW_lhs0 _ _
    | ⟨1, _⟩ => exact (DW_lhs1 _ _).trans hk)
  have er : DW.rhsIdx (ix2 p d) ((contrEquiv1 DW 64 rfl rfl).symm k) = ix2 k d := funext fun a => Fin.ext (by
    match a with
    | ⟨0, _⟩ => exact (DW_rhs0 _ _).trans hk
    | ⟨1, _⟩ => exact DW_rhs1 _ _)
  rw [el, er]

/-- The lane sum of a [512, 4096] block along its columns, at row `p`, is the sum over the 4096 columns. -/
theorem rowSum_apply (v : FVec Ideal S512x4096 .f32) (hφ : FKind.Formats .f32)
    (hacc : (0x00000000#32 : BitVec 32) = FKind.add.neutral .f32 hφ) (p : Fin 512) :
    multiReduction (F := Ideal) .add [1] S512 v 0x00000000#32 reduces_S512x4096_S512 hφ hacc (ix1 p)
      = ∑ d : Fin 4096, v (ix2 p d) := by
  refine (Ideal.multiReduction_add_single v 0x00000000#32 reduces_S512x4096_S512 hφ hacc (ix1 p)).trans ?_
  refine Finset.sum_congr rfl fun d _ => ?_
  exact congrArg v (funext fun a => Fin.ext (by match a with | ⟨0, _⟩ => rfl | ⟨1, _⟩ => rfl))

/-- Row `p` of the body's stored vector. -/
theorem payload_apply (w : Vec Ideal S512x4096 .f32) (a : Vec Ideal S64x4096 .f32) (b : Vec Ideal S512x64 .f32)
    (g : Vec Ideal S512 .f32) (p : Fin 512) :
    k0_pay1 (F := Ideal) w a b g (ix1 p)
      = Ideal.div (g (ix1 p))
          (Ideal.sqrt (∑ d : Fin 4096, (w (ix2 p d) + (∑ r : Fin 64, b (ix2 p r) * a (ix2 r d)) * two)
              * (w (ix2 p d) + (∑ r : Fin 64, b (ix2 p r) * a (ix2 r d)) * two)) + eps) := by
  unfold k0_pay1
  simp only [divf_apply, addf_apply, sqrt, Ideal.sqrt_def, broadcast_apply, Ideal.ofBits_def]
  refine congrArg (fun s => Ideal.div (g (ix1 p)) (Ideal.sqrt s + eps)) ?_
  refine (rowSum_apply _ _ _ p).trans ?_
  refine Finset.sum_congr rfl fun d _ => ?_
  simp only [mulf_apply, addf_apply, weightProduct_apply, broadcast_apply, truncf_apply]

end Cert.KernelIdeal.NormBody

end
-- ==== Proof.NormBlocks.lean ====
/-
  The first kernel's output array after its eight grid points: the magnitude scale of the region's four input arrays.

  Grid point `t` holds rows `512 t … 512 t + 511` of the base weight, of the factor `B` and of the magnitudes, and the whole
  factor `A`; it writes back rows `512 t … 512 t + 511` of the output vector. By the body's value at an entry
  (`NormBody.payload_apply`) what it writes back is that block of ONE vector, the magnitude scale of the four arrays as
  the region finds them; the eight blocks tile the 4096 entries (row `i` is in block `i / 512`), so the output array ends
  holding the magnitude scale. Everything is stated for any contents `V` of the buffers at the region's entry.
-/
import proofs.«158901_j14869176779242_2_alg».proof.Proof.Gen.KernelIdeal.Frame
import proofs.«158901_j14869176779242_2_alg».proof.Proof.NormBody
import Idealize.ShloMosaic.Lib.Pipeline.Value

noncomputable section

open scoped BigOperators

namespace Cert.KernelIdeal.NormValue

open Cert.KernelIdeal Cert.KernelIdeal.Gen Idealize.ShloMosaic Idealize.ShloMosaic.TcCoe Idealize.SL.Sem
open Idealize.ShloMosaic.Pipeline (Dat)
open Idealize.ShloMosaic.ValueIdx Cert.Dora

variable (V : (c : Dev nD) → (b : Ref sig .tc) → Buf (Elt Ideal) ((c : Thread nD τ).loc b))

theorem zeros1 : (![0] : Fin 1 → Nat) = fun _ => 0 := funext fun a => by fin_cases a; rfl
theorem zeros2 : (![0, 0] : Fin 2 → Nat) = fun _ => 0 := funext fun a => by fin_cases a <;> rfl

/-- The printed index maps over the eight grid points: the row-blocked windows sit at block row `t`, the whole factor
    at block (0, 0). -/
theorem index_facts : ∀ t : Fin cfg0.N, t.val < 8
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 1) = t.val
    ∧ win0_4.index t (0 : Fin 1) = t.val :=
  (by decide +kernel : ∀ t : Fin grid0.N, _)

/-- Every block row of the output is some grid point's. -/
theorem index_onto : ∀ q : Fin 8, ∃ t : Fin cfg0.N, win0_4.index t (0 : Fin 1) = q.val :=
  (by decide +kernel : ∀ q : Fin 8, ∃ t : Fin grid0.N, win0_4.index t (0 : Fin 1) = q.val)

/-- One block: if the loaded blocks are rows `512 k …` of the arrays `W`, `B`, `g` and the whole of `A`, the body's
    stored vector at local row `j` is the magnitude scale of the arrays at row `512 k + j`. -/
theorem block_eq (W : ArrW) (A : ArrA) (B : ArrB) (g : ArrG)
    (w : Vec Ideal S512x4096 .f32) (a : Vec Ideal S64x4096 .f32) (b : Vec Ideal S512x64 .f32) (gb : Vec Ideal S512 .f32)
    (k : Nat) (hk : k < 8)
    (hw : ∀ (p : Fin 512) (d : Fin 4096), w (ix2 p d) = W (ix2 (⟨k * 512 + p.val, by omega⟩ : Fin 4096) d))
    (ha : ∀ (r : Fin 64) (d : Fin 4096), a (ix2 r d) = A (ix2 r d))
    (hb : ∀ (p : Fin 512) (r : Fin 64), b (ix2 p r) = B (ix2 (⟨k * 512 + p.val, by omega⟩ : Fin 4096) r))
    (hg : ∀ p : Fin 512, gb (ix1 p) = g (ix1 (⟨k * 512 + p.val, by omega⟩ : Fin 4096)))
    (j : S512.Idx) :
    k0_pay1 (F := Ideal) w a b gb j
      = magScaleAt W A B g (⟨k * 512 + (j 0).val, by have := (j 0).isLt; have : (j 0).val < 512 := this; omega⟩ : Fin 4096) := by
  obtain ⟨p, rfl⟩ : ∃ p : Fin 512, j = ix1 p := ⟨j 0, eq_ix1 j⟩
  rw [NormBody.payload_apply]
  unfold magScaleAt updated
  simp only [hw, ha, hb, hg]

/-- WHAT POINT `t` WRITES BACK is block `t` of the magnitude scale of the arrays as the region finds them. -/
theorem flushed_eq (c : Dev nD) (t : Fin cfg0.N) :
    (dat0 V c).flushed 4 t = ((cfg0.win 4).blk t).view.read (Elt Ideal)
      (magScale (V c main_arg2) (V c main_arg3) (V c main_arg4) (V c main_arg5)) := by
  show (cfg0.win 4).cut (grid0.coords t) ((dat0 V c).after 4 t) = _
  rw [after0_4]
  unfold out0_4
  rw [View.canon_unit_zero zeros1]
  simp only [View.ld_unit_zero (S := S512x4096) zeros2, View.ld_unit_zero (S := S64x4096) zeros2,
    View.ld_unit_zero (S := S512x64) zeros2, View.ld_unit_zero (S := S512) zeros1]
  obtain ⟨ht, e00, e01, e10, e11, e20, e21, e30, e40⟩ := index_facts t
  funext j
  refine (block_eq (V c main_arg2) (V c main_arg3) (V c main_arg4) (V c main_arg5)
    (iblk0 V c 0 t) (iblk0 V c 1 t) (iblk0 V c 2 t) (iblk0 V c 3 t) t.val ht ?_ ?_ ?_ ?_ j).trans ?_
  · intro p d
    show V c main_arg2 (((cfg0.win 0).blk t).view.emb (ix2 p d)) = V c main_arg2 _
    refine congrArg (V c main_arg2) (funext fun a => Fin.ext ?_)
    match a with
    | ⟨0, _⟩ => show win0_0.index t (0 : Fin 2) * 512 + 1 * p.val = t.val * 512 + p.val; omega
    | ⟨1, _⟩ => show win0_0.index t (1 : Fin 2) * 4096 + 1 * d.val = d.val; omega
  · intro r d
    show V c main_arg3 (((cfg0.win 1).blk t).view.emb (ix2 r d)) = V c main_arg3 _
    refine congrArg (V c main_arg3) (funext fun a => Fin.ext ?_)
    match a with
    | ⟨0, _⟩ => show win0_1.index t (0 : Fin 2) * 64 + 1 * r.val = r.val; omega
    | ⟨1, _⟩ => show win0_1.index t (1 : Fin 2) * 4096 + 1 * d.val = d.val; omega
  · intro p r
    show V c main_arg4 (((cfg0.win 2).blk t).view.emb (ix2 p r)) = V c main_arg4 _
    refine congrArg (V c main_arg4) (funext fun a => Fin.ext ?_)
    match a with
    | ⟨0, _⟩ => show win0_2.index t (0 : Fin 2) * 512 + 1 * p.val = t.val * 512 + p.val; omega
    | ⟨1, _⟩ => show win0_2.index t (1 : Fin 2) * 64 + 1 * r.val = r.val; omega
  · intro p
    show V c main_arg5 (((cfg0.win 3).blk t).view.emb (ix1 p)) = V c main_arg5 _
    refine congrArg (V c main_arg5) (funext fun a => Fin.ext ?_)
    match a with
    | ⟨0, _⟩ => show win0_3.index t (0 : Fin 1) * 512 + 1 * p.val = t.val * 512 + p.val; omega
  · show magScaleAt _ _ _ _ _ = magScaleAt _ _ _ _ ((((cfg0.win 4).blk t).view.emb j) 0)
    refine congrArg _ (Fin.ext ?_)
    show t.val * 512 + (j 0).val = win0_4.index t (0 : Fin 1) * 512 + 1 * (j 0).val
    omega

/-- An entry of the output vector is in point `t`'s block iff its row is in the block's range. -/
theorem mem_blk (t : Fin cfg0.N) (i : S4096.Idx) :
    i ∈ ((cfg0.win 4).blk t).view.set ↔ ∀ a : Fin 1, win0_4.index t a * S512.size a ≤ (i a).val ∧ (i a).val < win0_4.index t a * S512.size a + S512.size a := by
  show i ∈ ((View.whole main_v0).slice (win0_4.rect t)).set ↔ _
  rw [View.set_slice_whole, Rect.mem_set_unit]
  exact Iff.rfl

/-- The eight blocks tile the output vector: row `i` is in the block of point `i / 512`. -/
theorem cover (i : S4096.Idx) : ∃ t : Fin cfg0.N, (cfg0.win 4).flush t = true ∧ i ∈ ((cfg0.win 4).blk t).view.set := by
  have hi : (i 0).val < 4096 := (i 0).isLt
  obtain ⟨t, ht⟩ := index_onto ⟨(i 0).val / 512, by omega⟩
  have ht' : win0_4.index t (0 : Fin 1) = (i 0).val / 512 := ht
  refine ⟨t, flush0_4 t, ?_⟩
  rw [mem_blk]
  intro a
  match a with
  | ⟨0, _⟩ =>
    show win0_4.index t (0 : Fin 1) * 512 ≤ (i 0).val ∧ (i 0).val < win0_4.index t (0 : Fin 1) * 512 + 512
    omega

/-- THE OUTPUT VECTOR after the region: the magnitude scale of the four arrays as the region finds them. -/
theorem final (c : Dev nD) :
    (dat0 V c).arrAt 4 cfg0.N = magScale (V c main_arg2) (V c main_arg3) (V c main_arg4) (V c main_arg5) :=
  (dat0 V c).arrAt_eq_of_cover 4 _ (fun t _ => flushed_eq V c t) cover

end Cert.KernelIdeal.NormValue

end
-- ==== Proof.MainBody.lean ====
/-
  The second kernel's body at an entry.

  The body holds one batch's block of 256 tokens of the activation `x` [1, 256, 4096] and of the base output `y`
  [1, 256, 4096], the whole factor `a` [64, 4096], a [64, 4096] matrix `bt` (the other factor, transposed) and a scale
  vector `s` [4096]. Entry (token `t`, feature `o`) of what it stores is

    (y[0, t, o] + (Σ_r (Σ_d x[0, t, d] · a[r, d]) · bt[r, o]) · 2) · s[o].

  Both products are matrix-unit products into a zero accumulator — at an entry plain sums, over the 4096 input features
  and over the 64 ranks —, the casts between [1, 256, 4096] and [256, 4096] only rename indices, the scale vector is one
  row broadcast over the 256 tokens, and the roundings to bf16 are the identity on the extended reals.
-/
import proofs.«158901_j14869176779242_2_alg».proof.Proof.Gen.KernelIdeal.Skeleton
import proofs.«158901_j14869176779242_2_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.MainBody

open Cert.KernelIdeal Cert.KernelIdeal.Gen Idealize.ShloMosaic Idealize.ShloMosaic.ValueIdx Cert.Dora

/-- The dimension numbers of `x · aᵀ`: [256, 4096] by [64, 4096], contracting the 4096 input features of both. -/
abbrev DX := dot_S256x4096_S64x4096_S256x64_1_1_0_0_n_n
/-- The dimension numbers of the second product: [256, 64] by [64, 4096], contracting the 64 ranks. -/
abbrev DB := dot_S256x64_S64x4096_S256x4096_1_0_0_1_n_n

theorem DX_lhs0 (i : S256x64.Idx) (q : DX.contr.Idx) : (DX.lhsIdx i q 0).val = (i 0).val := by
  unfold DotDims.lhsIdx
  rw [dif_neg (show ¬(0 : Fin S256x4096.rank) ∈ DX.lhsBatch by decide), dif_pos (show (0 : Fin S256x4096.rank) ∈ DX.lhsNonContracting by decide)]
  rfl
theorem DX_lhs1 (i : S256x64.Idx) (q : DX.contr.Idx) : (DX.lhsIdx i q 1).val = (q ⟨0, by decide⟩).val :=
  DX.lhsIdx_val_of_single rfl i q
theorem DX_rhs0 (i : S256x64.Idx) (q : DX.contr.Idx) : (DX.rhsIdx i q 0).val = (i 1).val := by
  unfold DotDims.rhsIdx
  rw [dif_neg (show ¬(0 : Fin S64x4096.rank) ∈ DX.rhsBatch by decide), dif_pos (show (0 : Fin S64x4096.rank) ∈ DX.rhsNonContracting by decide)]
  rfl
theorem DX_rhs1 (i : S256x64.Idx) (q : DX.contr.Idx) : (DX.rhsIdx i q 1).val = (q ⟨0, by decide⟩).val :=
  DX.rhsIdx_val_of_single rfl i q

/-- `x · aᵀ` into a zero accumulator, at token `t` and rank `k`, is the sum over the input features. -/
theorem firstProduct_apply (l : FVec Ideal S256x4096 .bf16) (r : FVec Ideal S64x4096 .bf16) (t : Fin 256) (k : Fin 64) :
    matmul DX none l r (constant (F := Ideal) S256x64 .f32 0x00000000#32) (ix2 t k) = ∑ d : Fin 4096, l (ix2 t d) * r (ix2 k d) := by
  simp only [matmul]
  rw [Ideal.matmul_constant_zero_apply, ← Equiv.sum_comp (contrEquiv1 DX 4096 rfl rfl).symm]
  refine Finset.sum_congr rfl fun d _ => ?_
  have hd := contrEquiv1_symm_val DX 4096 rfl rfl d
  have el : DX.lhsIdx (ix2 t k) ((contrEquiv1 DX 4096 rfl rfl).symm d) = ix2 t d := funext fun a => Fin.ext (by
    match a with
    | ⟨0, _⟩ => exact DX_lhs0 _ _
    | ⟨1, _⟩ => exact (DX_lhs1 _ _).trans hd)
  have er : DX.rhsIdx (ix2 t k) ((contrEquiv1 DX 4096 rfl rfl).symm d) = ix2 k d := funext fun a => Fin.ext (by
    match a with
    | ⟨0, _⟩ => exact DX_rhs0 _ _
    | ⟨1, _⟩ => exact (DX_rhs1 _ _).trans hd)
  rw [el, er]

theorem DB_lhs0 (i : S256x4096.Idx) (q : DB.contr.Idx) : (DB.lhsIdx i q 0).val = (i 0).val := by
  unfold DotDims.lhsIdx
  rw [dif_neg (show ¬(0 : Fin S256x64.rank) ∈ DB.lhsBatch by decide), dif_pos (show (0 : Fin S256x64.rank) ∈ DB.lhsNonContracting by decide)]
  rfl
theorem DB_lhs1 (i : S256x4096.Idx) (q : DB.contr.Idx) : (DB.lhsIdx i q 1).val = (q ⟨0, by decide⟩).val :=
  DB.lhsIdx_val_of_single rfl i q
theorem DB_rhs0 (i : S256x4096.Idx) (q : DB.contr.Idx) : (DB.rhsIdx i q 0).val = (q ⟨0, by decide⟩).val :=
  DB.rhsIdx_val_of_single rfl i q
theorem DB_rhs1 (i : S256x4096.Idx) (q : DB.contr.Idx) : (DB.rhsIdx i q 1).val = (i 1).val := by
  unfold DotDims.rhsIdx
  rw [dif_neg (show ¬(1 : Fin S64x4096.rank) ∈ DB.rhsBatch by decide), dif_pos (show (1 : Fin S64x4096.rank) ∈ DB.rhsNonContracting by decide)]
  rfl

/-- The second product into a zero accumulator, at token `t` and feature `o`, is the sum over the ranks. -/
theorem secondProduct_apply (l : FVec Ideal S256x64 .bf16) (r : FVec Ideal S64x4096 .bf16) (t : Fin 256) (o : Fin 4096) :
    matmul DB none l r (constant (F := Ideal) S256x4096 .f32 0x00000000#32) (ix2 t o) = ∑ k : Fin 64, l (ix2 t k) * r (ix2 k o) := by
  simp only [matmul]
  rw [Ideal.matmul_constant_zero_apply, ← Equiv.sum_comp (contrEquiv1 DB 64 rfl rfl).symm]
  refine Finset.sum_congr rfl fun k _ => ?_
  have hk := contrEquiv1_symm_val DB 64 rfl rfl k
  have el : DB.lhsIdx (ix2 t o) ((contrEquiv1 DB 64 rfl rfl).symm k) = ix2 t k := funext fun a => Fin.ext (by
    match a with
    | ⟨0, _⟩ => exact DB_lhs0 _ _
    | ⟨1, _⟩ => exact (DB_lhs1 _ _).trans hk)
  have er : DB.rhsIdx (ix2 t o) ((contrEquiv1 DB 64 rfl rfl).symm k) = ix2 k o := funext fun a => Fin.ext (by
    match a with
    | ⟨0, _⟩ => exact (DB_rhs0 _ _).trans hk
    | ⟨1, _⟩ => exact DB_rhs1 _ _)
  rw [el, er]

/-- Entry (`u`, token `t`, feature `o`) of the body's stored block, `u` the block's one batch coordinate. -/
theorem payload_apply (x y : Vec Ideal S1x256x4096 .f32) (a bt : Vec Ideal S64x4096 .f32) (s : Vec Ideal S4096 .f32)
    (u : Fin 1) (t : Fin 256) (o : Fin 4096) :
    k1_pay1 (F := Ideal) x y a bt s (ix3 u t o)
      = (y (ix3 (0 : Fin 1) t o)
          + (∑ r : Fin 64, (∑ d : Fin 4096, x (ix3 (0 : Fin 1) t d) * a (ix2 r d)) * bt (ix2 r o)) * two) * s (ix1 o) := by
  unfold k1_pay1
  simp only [shapeCast_ab_1ab_apply, mulf_apply, addf_apply, broadcastTo_1b_ab_apply, shapeCast_a_1a_apply, shapeCast_self,
    shapeCast_1ab_ab_apply, broadcast_apply, secondProduct_apply, truncf_apply, firstProduct_apply, Ideal.ofBits_def]

end Cert.KernelIdeal.MainBody

end
-- ==== Proof.MainBlocks.lean ====
/-
  The second kernel's output array after its 2 × 16 grid points: the second stage of the region's five input arrays.

  Grid point (batch `β`, token block `σ`) holds tokens `256 σ … 256 σ + 255` of batch `β` of the activation and of the base
  output, and the whole of the factor, of the transposed factor and of the scale vector; it writes back the same tokens
  of batch `β` of the output. By the body's value at an entry (`MainBody.payload_apply`) what it writes back is that
  block of ONE array, `stageTwo` of the five arrays as the region finds them; the 32 blocks tile the output (entry
  (b, t, o) is in the block of point (b, t / 256)), so the output array ends holding `stageTwo`. Everything is stated
  for any contents `V` of the buffers at the region's entry.
-/
import proofs.«158901_j14869176779242_2_alg».proof.Proof.Gen.KernelIdeal.Frame
import proofs.«158901_j14869176779242_2_alg».proof.Proof.MainBody
import Idealize.ShloMosaic.Lib.Pipeline.Value

noncomputable section

open scoped BigOperators

namespace Cert.KernelIdeal.MainValue

open Cert.KernelIdeal Cert.KernelIdeal.Gen Idealize.ShloMosaic Idealize.ShloMosaic.TcCoe Idealize.SL.Sem
open Idealize.ShloMosaic.Pipeline (Dat)
open Idealize.ShloMosaic.ValueIdx Cert.Dora

variable (V : (c : Dev nD) → (b : Ref sig .tc) → Buf (Elt Ideal) ((c : Thread nD τ).loc b))

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 32 grid points: the activation's and the base output's windows move with the
    output's, block (β, σ, 0) with β < 2 and σ < 16; the three resident windows stay at their one block. -/
theorem index_facts : ∀ t : Fin cfg1.N,
    win1_5.index t (0 : Fin 3) < 2 ∧ win1_5.index t (1 : Fin 3) < 16 ∧ win1_5.index t (2 : Fin 3) = 0
    ∧ win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = win1_5.index t (1 : Fin 3)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- Every (batch, token block) of the output is some grid point's. -/
theorem index_onto : ∀ (q0 : Fin 2) (q1 : Fin 16), ∃ t : Fin cfg1.N,
    win1_5.index t (0 : Fin 3) = q0.val ∧ win1_5.index t (1 : Fin 3) = q1.val ∧ win1_5.index t (2 : Fin 3) = 0 :=
  (by decide +kernel : ∀ (q0 : Fin 2) (q1 : Fin 16), ∃ t : Fin grid1.N,
    win1_5.index t (0 : Fin 3) = q0.val ∧ win1_5.index t (1 : Fin 3) = q1.val ∧ win1_5.index t (2 : Fin 3) = 0)

/-- One block: if the loaded blocks are tokens `256 σ …` of batch `β` of `X` and `Y` and the whole of `A`, `Bt`, `s`, the
    body's stored block at local entry `j` is the second stage at batch `β`, token `256 σ + j₁`, feature `j₂`. -/
theorem block_eq (X Y : Arr3) (A Bt : ArrA) (s : ArrG)
    (x y : Vec Ideal S1x256x4096 .f32) (a bt : Vec Ideal S64x4096 .f32) (sv : Vec Ideal S4096 .f32)
    (β σ : Nat) (hβ : β < 2) (hσ : σ < 16)
    (hx : ∀ (t : Fin 256) (d : Fin 4096), x (ix3 (0 : Fin 1) t d) = X (ix3 (⟨β, hβ⟩ : Fin 2) (⟨σ * 256 + t.val, by omega⟩ : Fin 4096) d))
    (hy : ∀ (t : Fin 256) (o : Fin 4096), y (ix3 (0 : Fin 1) t o) = Y (ix3 (⟨β, hβ⟩ : Fin 2) (⟨σ * 256 + t.val, by omega⟩ : Fin 4096) o))
    (ha : ∀ (r : Fin 64) (d : Fin 4096), a (ix2 r d) = A (ix2 r d))
    (hbt : ∀ (r : Fin 64) (o : Fin 4096), bt (ix2 r o) = Bt (ix2 r o))
    (hs : ∀ o : Fin 4096, sv (ix1 o) = s (ix1 o))
    (j : S1x256x4096.Idx) :
    k1_pay1 (F := Ideal) x y a bt sv j
      = stageTwoAt X Y A Bt s (⟨β, hβ⟩ : Fin 2)
          (⟨σ * 256 + (j 1).val, by have := (j 1).isLt; have : (j 1).val < 256 := this; omega⟩ : Fin 4096) (j 2) := by
  obtain ⟨u, t, o, rfl⟩ : ∃ (u : Fin 1) (t : Fin 256) (o : Fin 4096), j = ix3 u t o := ⟨j 0, j 1, j 2, eq_ix3 j⟩
  rw [MainBody.payload_apply]
  unfold stageTwoAt
  simp only [hx, hy, ha, hbt, hs]

/-- WHAT POINT `t` WRITES BACK is block `t` of the second stage of the arrays as the region finds them. -/
theorem flushed_eq (c : Dev nD) (t : Fin cfg1.N) :
    (dat1 V c).flushed 5 t = ((cfg1.win 5).blk t).view.read (Elt Ideal)
      (stageTwo (V c main_arg0) (V c main_arg1) (V c main_arg3) (V c main_v1) (V c main_v0)) := by
  show (cfg1.win 5).cut (grid1.coords t) ((dat1 V c).after 5 t) = _
  rw [after1_5]
  unfold out1_5
  rw [View.canon_unit_zero zeros3]
  simp only [View.ld_unit_zero (S := S1x256x4096) zeros3, View.ld_unit_zero (S := S64x4096) zeros2,
    View.ld_unit_zero (S := S4096) zeros1]
  obtain ⟨hβ, hσ, e52, e00, e01, e02, e10, e11, e12, e20, e21, e30, e31, e40⟩ := index_facts t
  funext j
  refine (block_eq (V c main_arg0) (V c main_arg1) (V c main_arg3) (V c main_v1) (V c main_v0)
    (iblk1 V c 0 t) (iblk1 V c 1 t) (iblk1 V c 2 t) (iblk1 V c 3 t) (iblk1 V c 4 t)
    (win1_5.index t (0 : Fin 3)) (win1_5.index t (1 : Fin 3)) hβ hσ ?_ ?_ ?_ ?_ ?_ j).trans ?_
  · intro tk d
    show V c main_arg0 (((cfg1.win 0).blk t).view.emb (ix3 (0 : Fin 1) tk d)) = V c main_arg0 _
    refine congrArg (V c main_arg0) (funext fun a => Fin.ext ?_)
    match a with
    | ⟨0, _⟩ => show win1_0.index t (0 : Fin 3) * 1 + 1 * 0 = win1_5.index t (0 : Fin 3); omega
    | ⟨1, _⟩ => show win1_0.index t (1 : Fin 3) * 256 + 1 * tk.val = win1_5.index t (1 : Fin 3) * 256 + tk.val; omega
    | ⟨2, _⟩ => show win1_0.index t (2 : Fin 3) * 4096 + 1 * d.val = d.val; omega
  · intro tk o
    show V c main_arg1 (((cfg1.win 1).blk t).view.emb (ix3 (0 : Fin 1) tk o)) = V c main_arg1 _
    refine congrArg (V c main_arg1) (funext fun a => Fin.ext ?_)
    match a with
    | ⟨0, _⟩ => show win1_1.index t (0 : Fin 3) * 1 + 1 * 0 = win1_5.index t (0 : Fin 3); omega
    | ⟨1, _⟩ => show win1_1.index t (1 : Fin 3) * 256 + 1 * tk.val = win1_5.index t (1 : Fin 3) * 256 + tk.val; omega
    | ⟨2, _⟩ => show win1_1.index t (2 : Fin 3) * 4096 + 1 * o.val = o.val; omega
  · intro r d
    show V c main_arg3 (((cfg1.win 2).blk t).view.emb (ix2 r d)) = V c main_arg3 _
    refine congrArg (V c main_arg3) (funext fun a => Fin.ext ?_)
    match a with
    | ⟨0, _⟩ => show win1_2.index t (0 : Fin 2) * 64 + 1 * r.val = r.val; omega
    | ⟨1, _⟩ => show win1_2.index t (1 : Fin 2) * 4096 + 1 * d.val = d.val; omega
  · intro r o
    show V c main_v1 (((cfg1.win 3).blk t).view.emb (ix2 r o)) = V c main_v1 _
    refine congrArg (V c main_v1) (funext fun a => Fin.ext ?_)
    match a with
    | ⟨0, _⟩ => show win1_3.index t (0 : Fin 2) * 64 + 1 * r.val = r.val; omega
    | ⟨1, _⟩ => show win1_3.index t (1 : Fin 2) * 4096 + 1 * o.val = o.val; omega
  · intro o
    show V c main_v0 (((cfg1.win 4).blk t).view.emb (ix1 o)) = V c main_v0 _
    refine congrArg (V c main_v0) (funext fun a => Fin.ext ?_)
    match a with
    | ⟨0, _⟩ => show win1_4.index t (0 : Fin 1) * 4096 + 1 * o.val = o.val; omega
  · show stageTwoAt _ _ _ _ _ _ _ _
      = stageTwoAt _ _ _ _ _ ((((cfg1.win 5).blk t).view.emb j) 0) ((((cfg1.win 5).blk t).view.emb j) 1) ((((cfg1.win 5).blk t).view.emb j) 2)
    have h0 : (j 0).val < 1 := (j 0).isLt
    congr 1
    · refine Fin.ext ?_
      show win1_5.index t (0 : Fin 3) = win1_5.index t (0 : Fin 3) * 1 + 1 * (j 0).val
      omega
    · refine Fin.ext ?_
      show win1_5.index t (1 : Fin 3) * 256 + (j 1).val = win1_5.index t (1 : Fin 3) * 256 + 1 * (j 1).val
      omega
    · refine Fin.ext ?_
      show (j 2).val = win1_5.index t (2 : Fin 3) * 4096 + 1 * (j 2).val
      omega

/-- An entry of the output array is in point `t`'s block iff each coordinate is in the block's range on its axis. -/
theorem mem_blk (t : Fin cfg1.N) (i : S2x4096x4096.Idx) :
    i ∈ ((cfg1.win 5).blk t).view.set ↔ ∀ a : Fin 3, win1_5.index t a * S1x256x4096.size a ≤ (i a).val ∧ (i a).val < win1_5.index t a * S1x256x4096.size a + S1x256x4096.size a := by
  show i ∈ ((View.whole main_v2).slice (win1_5.rect t)).set ↔ _
  rw [View.set_slice_whole, Rect.mem_set_unit]
  exact Iff.rfl

/-- The 32 blocks tile the output array: entry (b, t, o) is in the block of point (b, t / 256). -/
theorem cover (i : S2x4096x4096.Idx) : ∃ t : Fin cfg1.N, (cfg1.win 5).flush t = true ∧ i ∈ ((cfg1.win 5).blk t).view.set := by
  have hi0 : (i 0).val < 2 := (i 0).isLt
  have hi1 : (i 1).val < 4096 := (i 1).isLt
  have hi2 : (i 2).val < 4096 := (i 2).isLt
  obtain ⟨t, q0, q1, q2⟩ := index_onto ⟨(i 0).val, hi0⟩ ⟨(i 1).val / 256, by omega⟩
  have q0' : win1_5.index t (0 : Fin 3) = (i 0).val := q0
  have q1' : win1_5.index t (1 : Fin 3) = (i 1).val / 256 := q1
  refine ⟨t, flush1_5 t, ?_⟩
  rw [mem_blk]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 256 ≤ (i 1).val ∧ (i 1).val < win1_5.index t (1 : Fin 3) * 256 + 256
    omega
  | ⟨2, _⟩ =>
    show win1_5.index t (2 : Fin 3) * 4096 ≤ (i 2).val ∧ (i 2).val < win1_5.index t (2 : Fin 3) * 4096 + 4096
    omega

/-- THE OUTPUT ARRAY after the region: the second stage of the five arrays as the region finds them. -/
theorem final (c : Dev nD) :
    (dat1 V c).arrAt 5 cfg1.N = stageTwo (V c main_arg0) (V c main_arg1) (V c main_arg3) (V c main_v1) (V c main_v0) :=
  (dat1 V c).arrAt_eq_of_cover 5 _ (fun t _ => flushed_eq V c t) cover

end Cert.KernelIdeal.MainValue

end
-- ==== Proof.KernelValue.lean ====
/-
  The idealized kernel's result as one function of the six arguments.

  Region 1 finds the activation, the base output and the factor `A` as launched (no region and no host operation
  writes an argument); it finds in the transposed-factor buffer the host transpose of `B` as launched, entry (r, o) =
  `B[o, r]`; and it finds in the scale buffer what region 0 left there, the magnitude scale of the base weight, `A`, `B`
  and the magnitudes as launched (the transpose between the regions writes another buffer). Region 1's output array
  is the second stage of what it finds, so the result is the specification's `result` of the six arguments.
-/
import proofs.«158901_j14869176779242_2_alg».proof.Proof.KernelRun
import proofs.«158901_j14869176779242_2_alg».proof.Proof.NormBlocks
import proofs.«158901_j14869176779242_2_alg».proof.Proof.MainBlocks
import Idealize.ShloMosaic.Lib.ValueLayout
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.Dora

variable (m : (ℓ : Loc nD τ sig) → Buf (Elt Ideal) ℓ) (ρ : Dev nD → PrngReg)

/-! ## What region 1 finds -/

/-- The activation, as launched. -/
theorem entry_x (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The base output, as launched. -/
theorem entry_y (c : Dev nD) : V2 m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)

/-- The factor `A`, as launched. -/
theorem entry_A (c : Dev nD) : V2 m ρ c main_arg3 = m ((c : Thread nD τ).loc main_arg3) :=
  ((W3_arr m ρ c 2).trans (((dat1 (V2 m ρ) c).arrAt_in 2 rfl _).trans (A_eq1 (V2 m ρ) c 2))).symm.trans (W3_main_arg3 m ρ c)

/-- After region 0 the factor `B` is as launched: region 0 only reads it. -/
theorem mid_B (c : Dev nD) : W1 m ρ c (Proc.devRef .tc main_arg4) = m ((c : Thread nD τ).loc main_arg4) :=
  (W1_arr m ρ c 2).trans (((dat0 (V0 m ρ) c).arrAt_in 2 rfl _).trans (A_eq0 (V0 m ρ) c 2))

/-- The transposed-factor buffer: the host transpose of `B` as launched. -/
theorem entry_Bt (c : Dev nD) : V2 m ρ c main_v1 = transposed (m ((c : Thread nD τ).loc main_arg4)) := by
  have h : V2 m ρ c main_v1
      = transpose S64x4096 [1, 0] (W1 m ρ c (Proc.devRef .tc main_arg4)) transposes_S4096x64_S64x4096_1_0 := by
    show StableHlo.after hostOps1 (W1 m ρ c) (Proc.devRef .tc main_v1) = _
    after_results
  rw [h, mid_B]
  funext i
  obtain ⟨r, o, rfl⟩ : ∃ (r : Fin 64) (o : Fin 4096), i = ix2 r o := ⟨i 0, i 1, eq_ix2 i⟩
  exact transpose_ix2_apply _ _ r o

/-- The scale buffer: what region 0 left, the magnitude scale of the arguments as launched. -/
theorem entry_scale (c : Dev nD) :
    V2 m ρ c main_v0 = magScale (m ((c : Thread nD τ).loc main_arg2)) (m ((c : Thread nD τ).loc main_arg3))
      (m ((c : Thread nD τ).loc main_arg4)) (m ((c : Thread nD τ).loc main_arg5)) := by
  have h : V2 m ρ c main_v0 = W1 m ρ c (Proc.devRef .tc main_v0) := by
    show StableHlo.after hostOps1 (W1 m ρ c) (Proc.devRef .tc main_v0) = _
    after_results
  exact h.trans ((W1_arr m ρ c 4).trans (NormValue.final (V0 m ρ) c))

/-! ## The result -/

/-- The result buffer at the end of the run is the specification's `result` of the arguments as launched. -/
theorem result_eq (c : Dev nD) :
    W3 m ρ c (Proc.devRef .tc main_v2)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W3_result m ρ c).trans ((MainValue.final (V2 m ρ) c).trans ?_)
  rw [entry_x m ρ c, entry_y m ρ c, entry_A m ρ c, entry_Bt m ρ c, entry_scale m ρ c]
  rfl

/-- THE RUN, READ: every weakly fair execution of the idealized kernel terminates, nothing faulting, with the result
    at the specification's `result` of the arguments and the arguments as launched. -/
theorem run_result : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run m ρ)

end Cert.KernelIdeal.Whole

end
-- ==== Proof.RefIsSpec.lean ====
/-
  The reference's result, read one operation at a time, is the specification's `result`.

  Each index function the read-at-an-index lemmas compose is identified with an index built from coordinates:
  the first contraction `x · Aᵀ` reads `x[b, t, d]` and `A[r, d]`; the second reads the first at `[b, t, r]` and
  `B[o, r]`; the weight product reads `B[o, r]` and `A[r, d]`; the row sum of squares at `o` runs over `[o, d]`; and
  the two broadcasts of the scale vector read it at the last coordinate. After that the two sides are the same
  expression; the only arithmetic fact used is that the sum's initial word is the extended real `0`.
-/
import proofs.«158901_j14869176779242_2_alg».proof.Proof.Gen.ReferenceIdeal.Read
import proofs.«158901_j14869176779242_2_alg».proof.Proof.Spec

noncomputable section

open scoped BigOperators

namespace Cert.ReferenceIdeal.RefValue

open Cert.ReferenceIdeal Cert.ReferenceIdeal.Read Idealize.ShloMosaic Idealize.ShloMosaic.ValueIdx Cert.Dora

/-! ## The composed index functions, by coordinates -/

theorem lidx0 (b : Fin 2) (t : Fin 4096) (r : Fin 64) (d : Fin 4096) :
    lidx_main_v0 (ix3 b t r) d = ix3 b t d :=
  funext fun a => by match a with | ⟨0, _⟩ => rfl | ⟨1, _⟩ => rfl | ⟨2, _⟩ => rfl
theorem ridx0 (b : Fin 2) (t : Fin 4096) (r : Fin 64) (d : Fin 4096) :
    ridx_main_v0 (ix3 b t r) d = ix2 r d :=
  funext fun a => by match a with | ⟨0, _⟩ => rfl | ⟨1, _⟩ => rfl
theorem lidx1 (b : Fin 2) (t o : Fin 4096) (r : Fin 64) :
    lidx_main_v1 (ix3 b t o) r = ix3 b t r :=
  funext fun a => by match a with | ⟨0, _⟩ => rfl | ⟨1, _⟩ => rfl | ⟨2, _⟩ => rfl
theorem ridx1 (b : Fin 2) (t o : Fin 4096) (r : Fin 64) :
    ridx_main_v1 (ix3 b t o) r = ix2 o r :=
  funext fun a => by match a with | ⟨0, _⟩ => rfl | ⟨1, _⟩ => rfl
theorem lidx4 (o d : Fin 4096) (r : Fin 64) : lidx_main_v4 (ix2 o d) r = ix2 o r :=
  funext fun a => by match a with | ⟨0, _⟩ => rfl | ⟨1, _⟩ => rfl
theorem ridx4 (o d : Fin 4096) (r : Fin 64) : ridx_main_v4 (ix2 o d) r = ix2 r d :=
  funext fun a => by match a with | ⟨0, _⟩ => rfl | ⟨1, _⟩ => rfl
theorem idx9 (o d : Fin 4096) : idx_main_v9 (ix1 o) d = ix2 o d :=
  funext fun a => by match a with | ⟨0, _⟩ => rfl | ⟨1, _⟩ => rfl
theorem idx1516 (b : Fin 2) (t o : Fin 4096) : idx_main_v15 (idx_main_v16 (ix3 b t o)) = ix1 o :=
  funext fun a => by match a with | ⟨0, _⟩ => rfl

/-! ## The reference is the specification -/

/-- The reference's scale vector at feature `o` is the specification's magnitude scale. -/
theorem scale_eq (x2 : FVec Ideal S4096x4096 .f32) (x3 : FVec Ideal S64x4096 .f32) (x4 : FVec Ideal S4096x64 .f32)
    (x5 : FVec Ideal S4096 .f32) (o : Fin 4096) :
    val_main_v13 (F := Ideal) x2 x3 x4 x5 (ix1 o) = magScaleAt x2 x3 x4 x5 o := by
  unfold magScaleAt updated
  simp only [val_main_v13_apply, val_main_v12_apply, val_main_v11_apply, val_main_cst_2_apply, val_main_v10_apply,
    val_main_v9_apply, val_main_cst_1_apply, val_main_v8_apply, val_main_v7_apply, val_main_v6_apply, val_main_v5_apply,
    val_main_cst_0_apply, val_main_v4_apply, idx9, lidx4, ridx4,
    Ideal.hostDivf_def, Ideal.addf_def, Ideal.mulf_def, Ideal.hostUnary_sqrt_def, Ideal.ofBits_def, Ideal.ofBits_zero_f32, zero_add]

/-- The reference's result array is the specification's `result` of the six arguments. -/
theorem reference_eq (x0 x1 : FVec Ideal S2x4096x4096 .f32) (x2 : FVec Ideal S4096x4096 .f32) (x3 : FVec Ideal S64x4096 .f32)
    (x4 : FVec Ideal S4096x64 .f32) (x5 : FVec Ideal S4096 .f32) :
    val_main_v17 (F := Ideal) x0 x1 x2 x3 x4 x5 = result x0 x1 x2 x3 x4 x5 := by
  funext i
  obtain ⟨b, t, o, rfl⟩ : ∃ (b : Fin 2) (t o : Fin 4096), i = ix3 b t o := ⟨i 0, i 1, i 2, eq_ix3 i⟩
  rw [result_apply, ← scale_eq]
  simp only [val_main_v17_apply, val_main_v16_apply, val_main_v15_apply, idx1516, val_main_v14_apply, val_main_v3_apply,
    val_main_v2_apply, val_main_cst_apply, val_main_v1_apply, val_main_v0_apply, lidx1, ridx1, lidx0, ridx0,
    Ideal.addf_def, Ideal.mulf_def, Ideal.ofBits_def]

end Cert.ReferenceIdeal.RefValue

end
-- ==== Proof.lean ====
/-
  A low-rank-adapted linear layer with a learned per-feature magnitude, as two kernels against its plain formula.

  With an activation `x`, a base output `y`, a base weight `W`, low-rank factors `A` and `B`, magnitudes `g`, the scale `2`
  and a small constant `ε`, both programs compute, on the extended reals,

    R[b, t, o] = (y[b, t, o] + (Σ_r (Σ_d x[b, t, d] · A[r, d]) · B[o, r]) · 2) · s[o],
    s[o]       = g[o] / (√(Σ_d (W[o, d] + (Σ_r B[o, r] · A[r, d]) · 2)²) + ε).

  The kernel program computes `s` in a first kernel, block of 512 rows by block, transposes `B` on the host, and computes
  `R` in a second kernel, one batch and 256 tokens at a time; the reference computes the same sums with whole-array
  contractions and a row reduction. Entry by entry the two are the same expression: the same products in the same
  order, the same two constants by their binary words, the same square root and quotient; a matrix-unit product into a
  zero accumulator and a host contraction are the same sum, the kernel's lane sum and the host's reduction differ by
  the initial value `0`, and the roundings to bf16 before the products are the identity on the extended reals. No law that
  could fail at an infinity is used, so the precondition (finite inputs) is never opened.

  `Cert.Dora` (Proof/Spec.lean) states `R`; Proof/RefIsSpec.lean reads the reference's run as `R`; Proof/NormBody.lean and
  Proof/MainBody.lean read the two kernel bodies at an entry, Proof/NormBlocks.lean and Proof/MainBlocks.lean the two output
  arrays after all grid points, Proof/KernelRun.lean the whole run with its result named, and Proof/KernelValue.lean the
  result as `R` of the arguments. The kernel programs' frames are the generated ones, the reference's frame is its
  generated run with the result dropped, and the idealization rewrote nothing.
-/
import proofs.«158901_j14869176779242_2_alg».proof.Defs
import proofs.«158901_j14869176779242_2_alg».proof.Proof.Gen.Kernel
import proofs.«158901_j14869176779242_2_alg».proof.Proof.Gen.Kernel.Frame
import proofs.«158901_j14869176779242_2_alg».proof.Proof.Gen.KernelIdeal
import proofs.«158901_j14869176779242_2_alg».proof.Proof.Gen.KernelIdeal.Frame
import proofs.«158901_j14869176779242_2_alg».proof.Proof.Gen.ReferenceIdeal
import proofs.«158901_j14869176779242_2_alg».proof.Proof.Gen.ReferenceIdeal.Run
import proofs.«158901_j14869176779242_2_alg».proof.Proof.Gen.ReferenceIdeal.Read
import proofs.«158901_j14869176779242_2_alg».proof.Proof.Gen.Pre_finite_inputs
import proofs.«158901_j14869176779242_2_alg».proof.Proof.KernelValue
import proofs.«158901_j14869176779242_2_alg».proof.Proof.RefIsSpec

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel program's result is `R` of its arguments and the reference's result is `R` of its
    arguments, which agree. -/
theorem algebraic : Cert.algebraic_KernelIdeal_ReferenceIdeal := by
  intro m ρ m' ρ' _ hagree
  refine ⟨_, Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans (Cert.ReferenceIdeal.RefValue.reference_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
